-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1048576 : Shape := ⟨2, ![16, 1048576]⟩
abbrev S_ : Shape := ⟨0, ![]⟩

class Facts : Prop where
  bcast_S_S16x1048576 : S_.BroadcastsInDim S16x1048576 (![] : Fin 0 → Fin S16x1048576.rank)
  reducesTo_S16x1048576_S_d0_1 : S16x1048576.ReducesTo [0, 1] S_
  h_S_ : 0 < S_.numel

variable [Facts]

def fn_part1 {F : FTy → Type} [FloatOps F] (main_arg4 : FVec F S16x1048576 .f32) (main_arg5 : FVec F S16x1048576 .f32) (main_arg6 : FVec F S16x1048576 .f32) (main_v13 : IVec S_ 1) (main_v16 : IVec S16x1048576 1) : IVec S_ 1 :=
  let main_c_5 : IVec S_ 1 := constantI S_ 1 1#1
  let main_v17 : IVec S_ 1 := (fun x v => Host.reduce IntOp.andi x v reducesTo_S16x1048576_S_d0_1 h_S_) main_v16 main_c_5
  let main_v18 : IVec S_ 1 := andi main_v13 main_v17
  let main_v19 : FVec F S16x1048576 .f32 := Host.absf main_arg4
  let main_cst_6 : FVec F S_ .f32 := constant S_ .f32 0x7F800000#32
  let main_v20 : FVec F S16x1048576 .f32 := broadcastInDim S16x1048576 ![] bcast_S_S16x1048576 main_cst_6
  let main_v21 : IVec S16x1048576 1 := cmpf .olt main_v19 main_v20
  let main_c_7 : IVec S_ 1 := constantI S_ 1 1#1
  let main_v22 : IVec S_ 1 := (fun x v => Host.reduce IntOp.andi x v reducesTo_S16x1048576_S_d0_1 h_S_) main_v21 main_c_7
  let main_v23 : IVec S_ 1 := andi main_v18 main_v22
  let main_v24 : FVec F S16x1048576 .f32 := Host.absf main_arg5
  let main_cst_8 : FVec F S_ .f32 := constant S_ .f32 0x7F800000#32
  let main_v25 : FVec F S16x1048576 .f32 := broadcastInDim S16x1048576 ![] bcast_S_S16x1048576 main_cst_8
  let main_v26 : IVec S16x1048576 1 := cmpf .olt main_v24 main_v25
  let main_c_9 : IVec S_ 1 := constantI S_ 1 1#1
  let main_v27 : IVec S_ 1 := (fun x v => Host.reduce IntOp.andi x v reducesTo_S16x1048576_S_d0_1 h_S_) main_v26 main_c_9
  let main_v28 : IVec S_ 1 := andi main_v23 main_v27
  let main_v29 : FVec F S16x1048576 .f32 := Host.absf main_arg6
  let main_cst_10 : FVec F S_ .f32 := constant S_ .f32 0x7F800000#32
  let main_v30 : FVec F S16x1048576 .f32 := broadcastInDim S16x1048576 ![] bcast_S_S16x1048576 main_cst_10
  let main_v31 : IVec S16x1048576 1 := cmpf .olt main_v29 main_v30
  let main_c_11 : IVec S_ 1 := constantI S_ 1 1#1
  let main_v32 : IVec S_ 1 := (fun x v => Host.reduce IntOp.andi x v reducesTo_S16x1048576_S_d0_1 h_S_) main_v31 main_c_11
  let main_v33 : IVec S_ 1 := andi main_v28 main_v32
  main_v33

def fn {F : FTy → Type} [FloatOps F] (main_arg0 : FVec F S16x1048576 .f32) (main_arg1 : FVec F S16x1048576 .f32) (main_arg2 : FVec F S16x1048576 .f32) (main_arg3 : FVec F S16x1048576 .f32) (main_arg4 : FVec F S16x1048576 .f32) (main_arg5 : FVec F S16x1048576 .f32) (main_arg6 : FVec F S16x1048576 .f32) : IVec S_ 1 :=
  let main_v0 : FVec F S16x1048576 .f32 := Host.absf main_arg0
  let main_cst : FVec F S_ .f32 := constant S_ .f32 0x7F800000#32
  let main_v1 : FVec F S16x1048576 .f32 := broadcastInDim S16x1048576 ![] bcast_S_S16x1048576 main_cst
  let main_v2 : IVec S16x1048576 1 := cmpf .olt main_v0 main_v1
  let main_c : IVec S_ 1 := constantI S_ 1 1#1
  let main_v3 : IVec S_ 1 := (fun x v => Host.reduce IntOp.andi x v reducesTo_S16x1048576_S_d0_1 h_S_) main_v2 main_c
  let main_v4 : FVec F S16x1048576 .f32 := Host.absf main_arg1
  let main_cst_0 : FVec F S_ .f32 := constant S_ .f32 0x7F800000#32
  let main_v5 : FVec F S16x1048576 .f32 := broadcastInDim S16x1048576 ![] bcast_S_S16x1048576 main_cst_0
  let main_v6 : IVec S16x1048576 1 := cmpf .olt main_v4 main_v5
  let main_c_1 : IVec S_ 1 := constantI S_ 1 1#1
  let main_v7 : IVec S_ 1 := (fun x v => Host.reduce IntOp.andi x v reducesTo_S16x1048576_S_d0_1 h_S_) main_v6 main_c_1
  let main_v8 : IVec S_ 1 := andi main_v3 main_v7
  let main_v9 : FVec F S16x1048576 .f32 := Host.absf main_arg2
  let main_cst_2 : FVec F S_ .f32 := constant S_ .f32 0x7F800000#32
  let main_v10 : FVec F S16x1048576 .f32 := broadcastInDim S16x1048576 ![] bcast_S_S16x1048576 main_cst_2
  let main_v11 : IVec S16x1048576 1 := cmpf .olt main_v9 main_v10
  let main_c_3 : IVec S_ 1 := constantI S_ 1 1#1
  let main_v12 : IVec S_ 1 := (fun x v => Host.reduce IntOp.andi x v reducesTo_S16x1048576_S_d0_1 h_S_) main_v11 main_c_3
  let main_v13 : IVec S_ 1 := andi main_v8 main_v12
  let main_v14 : FVec F S16x1048576 .f32 := Host.absf main_arg3
  let main_cst_4 : FVec F S_ .f32 := constant S_ .f32 0x7F800000#32
  let main_v15 : FVec F S16x1048576 .f32 := broadcastInDim S16x1048576 ![] bcast_S_S16x1048576 main_cst_4
  let main_v16 : IVec S16x1048576 1 := cmpf .olt main_v14 main_v15
  fn_part1 (F := F) main_arg4 main_arg5 main_arg6 main_v13 main_v16
-- ==== Kernel.lean ====
abbrev S16x1048576 : Shape := ⟨2, ![16, 1048576]⟩
abbrev S16x16384 : Shape := ⟨2, ![16, 16384]⟩

abbrev nBuf : Space → Nat
  | .hbm => 12
  | .vmem => 24
  | .smem => 0
  | _ => 0

abbrev bufTy : (tb : Table) → Fin (tcTables nBuf tb) → BufTy
  | .hbm, ⟨0, _⟩ => ⟨S16x1048576, .f32⟩
  | .hbm, ⟨1, _⟩ => ⟨S16x1048576, .f32⟩
  | .hbm, ⟨2, _⟩ => ⟨S16x1048576, .f32⟩
  | .hbm, ⟨3, _⟩ => ⟨S16x1048576, .f32⟩
  | .hbm, ⟨4, _⟩ => ⟨S16x1048576, .f32⟩
  | .hbm, ⟨5, _⟩ => ⟨S16x1048576, .f32⟩
  | .hbm, ⟨6, _⟩ => ⟨S16x1048576, .f32⟩
  | .hbm, ⟨7, _⟩ => ⟨S16x1048576, .f32⟩
  | .hbm, ⟨8, _⟩ => ⟨S16x1048576, .f32⟩
  | .hbm, ⟨9, _⟩ => ⟨S16x1048576, .f32⟩
  | .hbm, ⟨10, _⟩ => ⟨S16x1048576, .f32⟩
  | .hbm, ⟨11, _⟩ => ⟨S16x1048576, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S16x16384, .f32⟩
  | .local _ .vmem, ⟨5, _⟩ => ⟨S16x16384, .f32⟩
  | .local _ .vmem, ⟨6, _⟩ => ⟨S16x16384, .f32⟩
  | .local _ .vmem, ⟨7, _⟩ => ⟨S16x16384, .f32⟩
  | .local _ .vmem, ⟨8, _⟩ => ⟨S16x16384, .f32⟩
  | .local _ .vmem, ⟨9, _⟩ => ⟨S16x16384, .f32⟩
  | .local _ .vmem, ⟨10, _⟩ => ⟨S16x16384, .f32⟩
  | .local _ .vmem, ⟨11, _⟩ => ⟨S16x16384, .f32⟩
  | .local _ .vmem, ⟨12, _⟩ => ⟨S16x16384, .f32⟩
  | .local _ .vmem, ⟨13, _⟩ => ⟨S16x16384, .f32⟩
  | .local _ .vmem, ⟨14, _⟩ => ⟨S16x16384, .f32⟩
  | .local _ .vmem, ⟨15, _⟩ => ⟨S16x16384, .f32⟩
  | .local _ .vmem, ⟨16, _⟩ => ⟨S16x16384, .f32⟩
  | .local _ .vmem, ⟨17, _⟩ => ⟨S16x16384, .f32⟩
  | .local _ .vmem, ⟨18, _⟩ => ⟨S16x16384, .f32⟩
  | .local _ .vmem, ⟨19, _⟩ => ⟨S16x16384, .f32⟩
  | .local _ .vmem, ⟨20, _⟩ => ⟨S16x16384, .f32⟩
  | .local _ .vmem, ⟨21, _⟩ => ⟨S16x16384, .f32⟩
  | .local _ .vmem, ⟨22, _⟩ => ⟨S16x16384, .f32⟩
  | .local _ .vmem, ⟨23, _⟩ => ⟨S16x16384, .f32⟩
  | _, _ => ⟨S16x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S16x16384_S16x16384_0_0 : ∀ a, (![0, 0] : Fin 2 → Nat) a + S16x16384.size a ≤ S16x16384.size a
  h_S16x16384 : 0 < S16x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x1048576.size a
  hwx0_0 : ∀ i : grid0.Coords, EltTy.bits .f32 = 32 ∨ (Rect.block (s := S16x1048576) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S16x1048576.size a
  hwx0_1 : ∀ i : grid0.Coords, EltTy.bits .f32 = 32 ∨ (Rect.block (s := S16x1048576) S16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16384.size a ≤ S16x1048576.size a
  hwx0_2 : ∀ i : grid0.Coords, EltTy.bits .f32 = 32 ∨ (Rect.block (s := S16x1048576) S16x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x16384.size a ≤ S16x1048576.size a
  hwx0_3 : ∀ i : grid0.Coords, EltTy.bits .f32 = 32 ∨ (Rect.block (s := S16x1048576) S16x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x16384.size a ≤ S16x1048576.size a
  hwx0_4 : ∀ i : grid0.Coords, EltTy.bits .f32 = 32 ∨ (Rect.block (s := S16x1048576) S16x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16384.size a ≤ S16x1048576.size a
  hwx0_5 : ∀ i : grid0.Coords, EltTy.bits .f32 = 32 ∨ (Rect.block (s := S16x1048576) S16x16384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x16384.size a ≤ S16x1048576.size a
  hwx0_6 : ∀ i : grid0.Coords, EltTy.bits .f32 = 32 ∨ (Rect.block (s := S16x1048576) S16x16384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x16384.size a ≤ S16x1048576.size a
  hwx0_7 : ∀ i : grid0.Coords, EltTy.bits .f32 = 32 ∨ (Rect.block (s := S16x1048576) S16x16384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x16384.size a ≤ S16x1048576.size a
  hwx0_8 : ∀ i : grid0.Coords, EltTy.bits .f32 = 32 ∨ (Rect.block (s := S16x1048576) S16x16384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x16384.size a ≤ S16x1048576.size a
  hwx0_9 : ∀ i : grid0.Coords, EltTy.bits .f32 = 32 ∨ (Rect.block (s := S16x1048576) S16x16384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x16384.size a ≤ S16x1048576.size a
  hwx0_10 : ∀ i : grid0.Coords, EltTy.bits .f32 = 32 ∨ (Rect.block (s := S16x1048576) S16x16384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x16384.size a ≤ S16x1048576.size a
  hwx0_11 : ∀ i : grid0.Coords, EltTy.bits .f32 = 32 ∨ (Rect.block (s := S16x1048576) S16x16384.size (cc0_transform_11 i) (hinb0_11 i)).WholeWords (EltTy.packing .f32)

variable [Facts₀]

abbrev win0_0 : Pipeline.Window sig grid0 :=
  Pipeline.Window.ofSpec (Memref.whole main_arg0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x16384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S16x16384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S16x16384.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S16x16384.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S16x16384.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_4) S16x16384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where
  halias0_10 : Pipeline.Aliased win0 1 10
  halias0_11 : Pipeline.Aliased win0 2 11

variable [Facts]
-- ==== ReferenceIdeal.lean ====
abbrev S16x1048576 : Shape := ⟨2, ![16, 1048576]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x1048576, .f32⟩
  | .hbm, ⟨1, _⟩ => ⟨S16x1048576, .f32⟩
  | .hbm, ⟨2, _⟩ => ⟨S16x1048576, .f32⟩
  | .hbm, ⟨3, _⟩ => ⟨S16x1048576, .f32⟩
  | .hbm, ⟨4, _⟩ => ⟨S16x1048576, .f32⟩
  | .hbm, ⟨5, _⟩ => ⟨S16x1048576, .f32⟩
  | .hbm, ⟨6, _⟩ => ⟨S16x1048576, .f32⟩
  | .hbm, ⟨7, _⟩ => ⟨S16x1048576, .f32⟩
  | .hbm, ⟨8, _⟩ => ⟨S16x1048576, .f32⟩
  | .hbm, ⟨9, _⟩ => ⟨S16x1048576, .f32⟩
  | .hbm, ⟨10, _⟩ => ⟨S16x1048576, .f32⟩
  | .hbm, ⟨11, _⟩ => ⟨S16x1048576, .f32⟩
  | .hbm, ⟨12, _⟩ => ⟨S16x1048576, .f32⟩
  | .hbm, ⟨13, _⟩ => ⟨S16x1048576, .f32⟩
  | .hbm, ⟨14, _⟩ => ⟨S16x1048576, .f32⟩
  | .hbm, ⟨15, _⟩ => ⟨S16x1048576, .f32⟩
  | .hbm, ⟨16, _⟩ => ⟨S_, .f32⟩
  | .hbm, ⟨17, _⟩ => ⟨S16x1048576, .f32⟩
  | .hbm, ⟨18, _⟩ => ⟨S16x1048576, .f32⟩
  | .hbm, ⟨19, _⟩ => ⟨S16x1048576, .f32⟩
  | .hbm, ⟨20, _⟩ => ⟨S_, .f32⟩
  | .hbm, ⟨21, _⟩ => ⟨S16x1048576, .f32⟩
  | .hbm, ⟨22, _⟩ => ⟨S16x1048576, .f32⟩
  | .hbm, ⟨23, _⟩ => ⟨S16x1048576, .f32⟩
  | _, _ => ⟨S16x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S16x1048576 : S_.BroadcastsInDim S16x1048576 (![] : Fin 0 → Fin S16x1048576.rank)

variable [Facts₀]

class Facts : Prop extends Facts₀ where

variable [Facts]
-- ==== Proof.SvfStep.lean ====
/-
  One step of a state-variable filter, entry by entry over f32[16, 1048576].

  With `x` the input sample, `h₁` and `h₂` the two integrator states, `g` the integrator gain, `twoR` the
  damping and `c₁`, `c₂` the two precomputed coefficients, every entry of the five results is

      y_bp = c₂ · (x − h₂) + c₁ · h₁                 (band-pass)
      y_lp = g · y_bp + h₂                            (low-pass)
      y_hp = (x − y_lp) − twoR · y_bp                 (high-pass)
      h₁'  = 2 · y_bp − h₁        h₂' = 2 · y_lp − h₂  (the next states)

  The kernel evaluates these on 64 column blocks of width 16384 and the reference on the whole arrays at once,
  but an entry of a result depends only on the same entry of the seven inputs, and both sides apply the same
  operations, in the same order and grouping, to those entries, with the same literal 2. So the reference's
  whole-array expressions and the kernel's entrywise functions are the same term at every index: no law of
  arithmetic (commutativity, distributivity, cancellation) is used, hence nothing is asked of the inputs — not
  even that they be finite — and the equalities hold in every model of the float operations, in particular
  over the extended reals, where the claim is read.
-/
import proofs.«114886_j86517821210693_2_alg».proof.ReferenceIdeal
import proofs.«114886_j86517821210693_2_alg».proof.Proof.Gen.KernelIdeal.Value

noncomputable section

open Idealize.ShloMosaic

namespace Cert.Svf

open Cert.ReferenceIdeal

variable {F : FTy → Type} [FloatOps F]

/-- Band-pass output: the whole-array expression `c₂ · (x − h₂) + c₁ · h₁` is, entry by entry, the kernel's
    function of the same five arrays. -/
theorem bandpass_eq (x h₁ h₂ c₁ c₂ : FVec F S16x1048576 .f32) :
    addf (mulf c₂ (subf x h₂)) (mulf c₁ h₁) = Cert.KernelIdeal.Value.G7 (F := F) x h₁ h₂ c₁ c₂ := rfl

/-- Low-pass output: `g · y_bp + h₂`, with `y_bp` spelt out. -/
theorem lowpass_eq (x h₁ h₂ g c₁ c₂ : FVec F S16x1048576 .f32) :
    addf (mulf g (addf (mulf c₂ (subf x h₂)) (mulf c₁ h₁))) h₂
      = Cert.KernelIdeal.Value.G8 (F := F) x h₁ h₂ g c₁ c₂ := rfl

/-- High-pass output: `(x − y_lp) − twoR · y_bp`, with `y_lp` and `y_bp` spelt out. -/
theorem highpass_eq (x h₁ h₂ g twoR c₁ c₂ : FVec F S16x1048576 .f32) :
    subf (subf x (addf (mulf g (addf (mulf c₂ (subf x h₂)) (mulf c₁ h₁))) h₂))
        (mulf twoR (addf (mulf c₂ (subf x h₂)) (mulf c₁ h₁)))
      = Cert.KernelIdeal.Value.G9 (F := F) x h₁ h₂ g twoR c₁ c₂ := rfl

/-- The next first state: `2 · y_bp − h₁`. The reference spreads the scalar literal 2 over the whole array (an
    entry of the spread array is the scalar itself, whichever witness `hb` of the spreading's side condition is
    used), the kernel multiplies each entry by the same literal. -/
theorem state1_eq (hb : S_.BroadcastsInDim S16x1048576 (![] : Fin 0 → Fin S16x1048576.rank))
    (x h₁ h₂ c₁ c₂ : FVec F S16x1048576 .f32) :
    subf (mulf (broadcastInDim S16x1048576 ![] hb (constant S_ .f32 0x40000000#32))
        (addf (mulf c₂ (subf x h₂)) (mulf c₁ h₁))) h₁
      = Cert.KernelIdeal.Value.G10 (F := F) x h₁ h₂ c₁ c₂ := rfl

/-- The next second state: `2 · y_lp − h₂`. -/
theorem state2_eq (hb : S_.BroadcastsInDim S16x1048576 (![] : Fin 0 → Fin S16x1048576.rank))
    (x h₁ h₂ g c₁ c₂ : FVec F S16x1048576 .f32) :
    subf (mulf (broadcastInDim S16x1048576 ![] hb (constant S_ .f32 0x40000000#32))
        (addf (mulf g (addf (mulf c₂ (subf x h₂)) (mulf c₁ h₁))) h₂)) h₂
      = Cert.KernelIdeal.Value.G11 (F := F) x h₁ h₂ g c₁ c₂ := rfl

end Cert.Svf

end
-- ==== Proof.lean ====
/-
  One step of a state-variable filter over f32[16, 1048576]: the kernel against its whole-array reference.

  Seven input arrays — the sample `x`, the integrator states `h₁`, `h₂`, the gain `g`, the damping `twoR` and
  the coefficients `c₁`, `c₂` — give five results, each entry a function of the same entry of the inputs:

      y_bp = c₂ · (x − h₂) + c₁ · h₁      y_lp = g · y_bp + h₂      y_hp = (x − y_lp) − twoR · y_bp
      h₁'  = 2 · y_bp − h₁                h₂'  = 2 · y_lp − h₂

  The kernel walks 64 column blocks of width 16384; block `t` of each result is computed from block `t` of each
  input, the blocks are disjoint and together cover every column, so after the run each result array is the
  entrywise function above of the whole input arrays (the generated value leg). Two results are written into
  copies of `h₁` and `h₂`, so the argument arrays themselves end unchanged. The reference applies the same
  operations to the whole arrays (the generated reference run). The two sides use the same operations in the
  same order on the same entries and the same literal 2, so the results are equal term by term
  (Proof/SvfStep.lean); no algebraic law is involved, and the finiteness of the inputs is never used.

  The three frames are the generated ones (the reference's is its run with the results forgotten). The
  idealized kernel is the kernel's own text read over the extended reals — no operation of it was rewritten —
  so `preserves` has nothing to show.
-/
import proofs.«114886_j86517821210693_2_alg».proof.Defs
import proofs.«114886_j86517821210693_2_alg».proof.Proof.Gen.Kernel
import proofs.«114886_j86517821210693_2_alg».proof.Proof.Gen.Kernel.Skeleton
import proofs.«114886_j86517821210693_2_alg».proof.Proof.Gen.Kernel.Launch
import proofs.«114886_j86517821210693_2_alg».proof.Proof.Gen.Kernel.Points
import proofs.«114886_j86517821210693_2_alg».proof.Proof.Gen.Kernel.Frame
import proofs.«114886_j86517821210693_2_alg».proof.Proof.Gen.KernelIdeal
import proofs.«114886_j86517821210693_2_alg».proof.Proof.Gen.KernelIdeal.Skeleton
import proofs.«114886_j86517821210693_2_alg».proof.Proof.Gen.KernelIdeal.Launch
import proofs.«114886_j86517821210693_2_alg».proof.Proof.Gen.KernelIdeal.Points
import proofs.«114886_j86517821210693_2_alg».proof.Proof.Gen.KernelIdeal.Frame
import proofs.«114886_j86517821210693_2_alg».proof.Proof.Gen.ReferenceIdeal
import proofs.«114886_j86517821210693_2_alg».proof.Proof.Gen.Pre_finite_inputs
import proofs.«114886_j86517821210693_2_alg».proof.Proof.Gen.KernelIdeal.Value
import proofs.«114886_j86517821210693_2_alg».proof.Proof.Gen.ReferenceIdeal.Run
import proofs.«114886_j86517821210693_2_alg».proof.Proof.SvfStep
import Idealize.ShloMosaic.Adequacy
import Idealize.ShloMosaic.Init

noncomputable section

namespace Cert.Proof

open Idealize.ShloMosaic Idealize.SL.Sem

/-- The kernel as printed runs to the end without a fault and leaves its seven argument arrays as they were. -/
theorem frame_kernel : Cert.frame_Kernel := fun m ρ _ => Cert.Kernel.Gen.frame m ρ

/-- The same of the idealized kernel, read over the extended reals. -/
theorem frame_kernelIdeal : Cert.frame_KernelIdeal := fun m ρ _ => Cert.KernelIdeal.Gen.frame m ρ

/-- The reference runs to the end and keeps its arguments: its run, with what it says of the five results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- Nothing was rewritten on the way to the idealized kernel, so there is nothing to preserve. -/
theorem preserves : Cert.preserves_Kernel_KernelIdeal := trivial

/-- Over the extended reals, from memories that agree on the seven arguments, the kernel's five result arrays are
    the entrywise filter step of its arguments, the reference's are the whole-array filter step of its own, and
    these are the same arrays: rewrite the reference's arguments to the kernel's and compare term by term. -/
theorem algebraic : Cert.algebraic_KernelIdeal_ReferenceIdeal := by
  intro m ρ m' ρ' _ hagree
  refine ⟨_, _, _, _, _, Cert.KernelIdeal.Value.run (F := Ideal) m ρ, ?_⟩
  refine (θ_run Cert.ReferenceIdeal.defs _ _).mono (fun _ h c => ?_)
    (Cert.ReferenceIdeal.Value.run (F := Ideal) m' ρ')
  obtain ⟨r_bp, r_lp, r_hp, r_h1, r_h2, kept⟩ := h c
  obtain ⟨e_x, e_h1, e_h2, e_g, e_twoR, e_c1, e_c2⟩ := hagree c
  refine ⟨r_bp.trans ?_, r_lp.trans ?_, r_hp.trans ?_, r_h1.trans ?_, r_h2.trans ?_, kept⟩
  · rw [e_x, e_h1, e_h2, e_c1, e_c2]; exact Cert.Svf.bandpass_eq _ _ _ _ _
  · rw [e_x, e_h1, e_h2, e_g, e_c1, e_c2]; exact Cert.Svf.lowpass_eq _ _ _ _ _ _
  · rw [e_x, e_h1, e_h2, e_g, e_twoR, e_c1, e_c2]; exact Cert.Svf.highpass_eq _ _ _ _ _ _ _
  · rw [e_x, e_h1, e_h2, e_c1, e_c2]; exact Cert.Svf.state1_eq _ _ _ _ _ _
  · rw [e_x, e_h1, e_h2, e_g, e_c1, e_c2]; exact Cert.Svf.state2_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
